-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64x512 : Shape := ⟨3, ![2048, 64, 512]⟩
abbrev S64x512 : Shape := ⟨2, ![64, 512]⟩
abbrev S512x512 : Shape := ⟨2, ![512, 512]⟩
abbrev S512 : Shape := ⟨1, ![512]⟩
abbrev S_ : Shape := ⟨0, ![]⟩

class Facts : Prop where
  bcast_S_S2048x64x512 : S_.BroadcastsInDim S2048x64x512 (![] : Fin 0 → Fin S2048x64x512.rank)
  reducesTo_S2048x64x512_S_d0_1_2 : S2048x64x512.ReducesTo [0, 1, 2] S_
  h_S_ : 0 < S_.numel
  bcast_S_S64x512 : S_.BroadcastsInDim S64x512 (![] : Fin 0 → Fin S64x512.rank)
  reducesTo_S64x512_S_d0_1 : S64x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S2048x64x512 .f32) (main_arg1 : FVec F S64x512 .f32) (main_arg2 : FVec F S512x512 .f32) (main_arg3 : FVec F S512x512 .f32) (main_arg4 : FVec F S512 .f32) (main_arg5 : FVec F S512 .f32) : IVec S_ 1 :=
  let main_v0 : FVec F S2048x64x512 .f32 := Host.absf main_arg0
  let main_cst : FVec F S_ .f32 := constant S_ .f32 0x7F800000#32
  let main_v1 : FVec F S2048x64x512 .f32 := broadcastInDim S2048x64x512 ![] bcast_S_S2048x64x512 main_cst
  let main_v2 : IVec S2048x64x512 1 := cmpf .olt main_v0 main_v1
  let main_c : IVec S_ 1 := constantI S_ 1 1#1
  let main_v3 : IVec S_ 1 := (fun x v => Host.reduce IntOp.andi x v reducesTo_S2048x64x512_S_d0_1_2 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_v13 main_v16
-- ==== Kernel.lean ====
abbrev S2048x64x512 : Shape := ⟨3, ![2048, 64, 512]⟩
abbrev S64x512 : Shape := ⟨2, ![64, 512]⟩
abbrev S512x512 : Shape := ⟨2, ![512, 512]⟩
abbrev S512 : Shape := ⟨1, ![512]⟩
abbrev S1x512 : Shape := ⟨2, ![1, 512]⟩
abbrev S32x64x512 : Shape := ⟨3, ![32, 64, 512]⟩
abbrev S2048x512 : Shape := ⟨2, ![2048, 512]⟩
abbrev S1x64x512 : Shape := ⟨3, ![1, 64, 512]⟩

abbrev nBuf : Space → Nat
  | .hbm => 19
  | .vmem => 6
  | .smem => 0
  | _ => 0

abbrev bufTy : (tb : Table) → Fin (tcTables nBuf tb) → BufTy
  | .hbm, ⟨0, _⟩ => ⟨S2048x64x512, .f32⟩
  | .hbm, ⟨1, _⟩ => ⟨S64x512, .f32⟩
  | .hbm, ⟨2, _⟩ => ⟨S512x512, .f32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S512x512, .f32⟩
  | .hbm, ⟨7, _⟩ => ⟨S64x512, .f32⟩
  | .hbm, ⟨8, _⟩ => ⟨S1x512, .f32⟩
  | .hbm, ⟨9, _⟩ => ⟨S64x512, .f32⟩
  | .hbm, ⟨10, _⟩ => ⟨S64x512, .f32⟩
  | .hbm, ⟨11, _⟩ => ⟨S1x512, .f32⟩
  | .hbm, ⟨12, _⟩ => ⟨S64x512, .f32⟩
  | .hbm, ⟨13, _⟩ => ⟨S64x512, .f32⟩
  | .hbm, ⟨14, _⟩ => ⟨S512x512, .f32⟩
  | .hbm, ⟨15, _⟩ => ⟨S512x512, .bf16⟩
  | .hbm, ⟨16, _⟩ => ⟨S2048x64x512, .f32⟩
  | .hbm, ⟨17, _⟩ => ⟨S1x64x512, .f32⟩
  | .hbm, ⟨18, _⟩ => ⟨S64x512, .f32⟩
  | .local _ .vmem, ⟨0, _⟩ => ⟨S32x64x512, .f32⟩
  | .local _ .vmem, ⟨1, _⟩ => ⟨S32x64x512, .f32⟩
  | .local _ .vmem, ⟨2, _⟩ => ⟨S512x512, .bf16⟩
  | .local _ .vmem, ⟨3, _⟩ => ⟨S64x512, .f32⟩
  | .local _ .vmem, ⟨4, _⟩ => ⟨S32x64x512, .f32⟩
  | .local _ .vmem, ⟨5, _⟩ => ⟨S32x64x512, .f32⟩
  | _, _ => ⟨S2048x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S512x512_S512x512_1_0 : S512x512.Transposes [1, 0] S512x512
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  bitsLt_bf16_f32 : FTy.bits .bf16 < FTy.bits .f32
  inb_S32x64x512_S32x64x512_0_0_0 : ∀ a, (![0, 0, 0] : Fin 3 → Nat) a + S32x64x512.size a ≤ S32x64x512.size a
  h_S32x64x512 : 0 < S32x64x512.numel
  shapeCasts_S32x64x512_S2048x512 : S32x64x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S2048x512_S32x64x512 : S2048x512.ShapeCasts S32x64x512
  inb_S64x512_S64x512_0_0 : ∀ a, (![0, 0] : Fin 2 → Nat) a + S64x512.size a ≤ S64x512.size a
  h_S64x512 : 0 < S64x512.numel
  shapeCasts_S64x512_S64x512 : S64x512.ShapeCasts S64x512
  shapeCasts_S64x512_S1x64x512 : S64x512.ShapeCasts S1x64x512
  broadcasts_S1x64x512_S32x64x512 : S1x64x512.Broadcasts S32x64x512
  slices_S2048x64x512_S1x64x512_2047_0_0 : S2048x64x512.Slices ![2047, 0, 0] S1x64x512
  shapeCasts_S1x64x512_S64x512 : S1x64x512.ShapeCasts S64x512
  dot_S64x512_S512x512_S64x512_1_0_0_1_n_n_wf : DotDims.WF S64x512 S512x512 S64x512 [1] [0] [0] [1] [] []
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x64x512.size a ≤ S2048x64x512.size a
  hwx0_0 : ∀ i : grid0.Coords, EltTy.bits .f32 = 32 ∨ (Rect.block (s := S2048x64x512) S32x64x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x512.size a
  hwx0_2 : ∀ i : grid0.Coords, EltTy.bits .f32 = 32 ∨ (Rect.block (s := S64x512) S64x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x64x512.size a ≤ S2048x64x512.size a
  hwx0_3 : ∀ i : grid0.Coords, EltTy.bits .f32 = 32 ∨ (Rect.block (s := S2048x64x512) S32x64x512.size (cc0_transform_3 i) (hinb0_3 i)).WholeWords (EltTy.packing .f32)

variable [Facts₀]

def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S32x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S64x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S32x64x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x64x512 : Shape := ⟨3, ![2048, 64, 512]⟩
abbrev S64x512 : Shape := ⟨2, ![64, 512]⟩
abbrev S512x512 : Shape := ⟨2, ![512, 512]⟩
abbrev S512 : Shape := ⟨1, ![512]⟩
abbrev S1x1x512 : Shape := ⟨3, ![1, 1, 512]⟩
abbrev S1x512 : Shape := ⟨2, ![1, 512]⟩
abbrev S1x64x512 : Shape := ⟨3, ![1, 64, 512]⟩

abbrev nBuf : Space → Nat
  | .hbm => 21
  | .vmem => 0
  | .smem => 0
  | _ => 0

abbrev bufTy : (tb : Table) → Fin (tcTables nBuf tb) → BufTy
  | .hbm, ⟨0, _⟩ => ⟨S2048x64x512, .f32⟩
  | .hbm, ⟨1, _⟩ => ⟨S64x512, .f32⟩
  | .hbm, ⟨2, _⟩ => ⟨S512x512, .f32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S2048x64x512, .f32⟩
  | .hbm, ⟨7, _⟩ => ⟨S1x1x512, .f32⟩
  | .hbm, ⟨8, _⟩ => ⟨S2048x64x512, .f32⟩
  | .hbm, ⟨9, _⟩ => ⟨S2048x64x512, .f32⟩
  | .hbm, ⟨10, _⟩ => ⟨S512x512, .f32⟩
  | .hbm, ⟨11, _⟩ => ⟨S64x512, .f32⟩
  | .hbm, ⟨12, _⟩ => ⟨S1x512, .f32⟩
  | .hbm, ⟨13, _⟩ => ⟨S64x512, .f32⟩
  | .hbm, ⟨14, _⟩ => ⟨S64x512, .f32⟩
  | .hbm, ⟨15, _⟩ => ⟨S1x64x512, .f32⟩
  | .hbm, ⟨16, _⟩ => ⟨S2048x64x512, .f32⟩
  | .hbm, ⟨17, _⟩ => ⟨S2048x64x512, .f32⟩
  | .hbm, ⟨18, _⟩ => ⟨S2048x64x512, .f32⟩
  | .hbm, ⟨19, _⟩ => ⟨S1x64x512, .f32⟩
  | .hbm, ⟨20, _⟩ => ⟨S64x512, .f32⟩
  | _, _ => ⟨S2048x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S2048x64x512_0_1_2 : S1x1x512.BroadcastsInDim S2048x64x512 (![0, 1, 2] : Fin 3 → Fin S2048x64x512.rank)
  transposes_S512x512_S512x512_1_0 : S512x512.Transposes [1, 0] S512x512
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  bcast_S64x512_S1x64x512_1_2 : S64x512.BroadcastsInDim S1x64x512 (![1, 2] : Fin 2 → Fin S1x64x512.rank)
  bcast_S1x64x512_S2048x64x512_0_1_2 : S1x64x512.BroadcastsInDim S2048x64x512 (![0, 1, 2] : Fin 3 → Fin S2048x64x512.rank)
  slices_S2048x64x512_S1x64x512_2047_0_0 : S2048x64x512.Slices ![2047, 0, 0] S1x64x512
  shapeCasts_S1x64x512_S64x512 : S1x64x512.ShapeCasts S64x512
  dot_S2048x64x512_S512x512_S2048x64x512_2_1_01_0_n_n_wf : DotDims.WF S2048x64x512 S512x512 S2048x64x512 [2] [1] [0, 1] [0] [] []
  dot_S64x512_S512x512_S64x512_1_0_0_1_n_n_wf : DotDims.WF S64x512 S512x512 S64x512 [1] [0] [0] [1] [] []

variable [Facts₀]

def dot_S2048x64x512_S512x512_S2048x64x512_2_1_01_0_n_n : DotDims S2048x64x512 S512x512 S2048x64x512 where
  lhsContracting := [2]
  rhsContracting := [1]
  lhsNonContracting := [0, 1]
  rhsNonContracting := [0]
  lhsBatch := []
  rhsBatch := []
  wf := dot_S2048x64x512_S512x512_S2048x64x512_2_1_01_0_n_n_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf

class Facts : Prop extends Facts₀ where

variable [Facts]
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.LibMergeLead.lean ====
/-
  Rank-3 arrays whose two leading axes are merged into one, read by coordinates.

  A row-major [a, b, c] array and the [a·b, c] matrix with the same elements in the same order: row p·b + q of the
  matrix is row (p, q) of the array. Both directions of the recast are read at an entry here (`merge_apply`,
  `split_apply`), for any extents; the merged extent is a separate number `n` with the equation `r = p·b + q` between
  the row numbers asked of the caller, so that a literal extent (2048 for 32·64) matches as written.

  Also a [b, c] matrix given a leading unit axis and repeated along it a times: entry (p, q, k) of the result is
  entry (q, k) of the matrix (`addLead_apply`, `repeatLead_apply`).
-/
import Idealize.ShloMosaic.Lib.Pipeline.Value
import Idealize.ShloMosaic.Lib.ValueIdx

noncomputable section

namespace Idealize.ShloMosaic.MergeLead

open Idealize.ShloMosaic Idealize.ShloMosaic.ValueIdx

variable {α : Type} {a b c n : Nat}

/-- The [a, b, c] array recast as an [n, c] matrix, at row r = p·b + q and column k, is the array at (p, q, k). -/
theorem merge_apply (v : (⟨3, ![a, b, c]⟩ : Shape).Idx → α) (h : (⟨3, ![a, b, c]⟩ : Shape).ShapeCasts ⟨2, ![n, c]⟩)
    (p : Fin a) (q : Fin b) (k : Fin c) (r : Fin n) (hr : r.val = p.val * b + q.val) :
    shapeCast ⟨2, ![n, c]⟩ v h (ix2 r k) = v (ix3 p q k) :=
  shapeCast_apply v h (ix2 r k) (ix3 p q k) (by
    rw [Shape.rowMajor_val_three, Shape.rowMajor_val_two]
    show (p.val * b + q.val) * c + k.val = r.val * c + k.val
    rw [hr])

/-- The [n, c] matrix recast as an [a, b, c] array, at (p, q, k), is the matrix at row r = p·b + q and column k. -/
theorem split_apply (v : (⟨2, ![n, c]⟩ : Shape).Idx → α) (h : (⟨2, ![n, c]⟩ : Shape).ShapeCasts ⟨3, ![a, b, c]⟩)
    (p : Fin a) (q : Fin b) (k : Fin c) (r : Fin n) (hr : r.val = p.val * b + q.val) :
    shapeCast ⟨3, ![a, b, c]⟩ v h (ix3 p q k) = v (ix2 r k) :=
  shapeCast_apply v h (ix3 p q k) (ix2 r k) (by
    rw [Shape.rowMajor_val_three, Shape.rowMajor_val_two]
    show r.val * c + k.val = (p.val * b + q.val) * c + k.val
    rw [hr])

/-- A [b, c] matrix given a leading unit axis: entry (0, q, k) is entry (q, k). -/
theorem addLead_apply (v : (⟨2, ![b, c]⟩ : Shape).Idx → α) (h : (⟨2, ![b, c]⟩ : Shape).ShapeCasts ⟨3, ![1, b, c]⟩)
    (z : Fin 1) (q : Fin b) (k : Fin c) :
    shapeCast ⟨3, ![1, b, c]⟩ v h (ix3 z q k) = v (ix2 q k) :=
  shapeCast_apply v h (ix3 z q k) (ix2 q k) (by
    rw [Shape.rowMajor_val_three, Shape.rowMajor_val_two]
    show q.val * c + k.val = (z.val * b + q.val) * c + k.val
    have hz : z.val = 0 := by have := z.isLt; omega
    rw [hz, Nat.zero_mul, Nat.zero_add])

/-- A [1, b, c] array repeated a times along its unit axis: entry (p, q, k) is entry (0, q, k). -/
theorem repeatLead_apply (v : (⟨3, ![1, b, c]⟩ : Shape).Idx → α) (h : (⟨3, ![1, b, c]⟩ : Shape).Broadcasts ⟨3, ![a, b, c]⟩)
    (p : Fin a) (q : Fin b) (k : Fin c) :
    broadcastTo ⟨3, ![a, b, c]⟩ v h (ix3 p q k) = v (ix3 (0 : Fin 1) q k) :=
  broadcastTo_apply v h (ix3 p q k) (ix3 (0 : Fin 1) q k) (fun d => by
    match d with
    | ⟨0, _⟩ => show 0 = if (1 : Nat) = 1 then 0 else p.val; rw [if_pos rfl]
    | ⟨1, _⟩ =>
      show q.val = if b = 1 then 0 else q.val
      split
      · have := q.isLt; omega
      · rfl
    | ⟨2, _⟩ =>
      show k.val = if c = 1 then 0 else k.val
      split
      · have := k.isLt; omega
      · rfl)

end Idealize.ShloMosaic.MergeLead

end
-- ==== Proof.Payload.lean ====
/-
  What the kernel body stores, entry by entry.

  At one grid point the body holds a block x0 of 32 steps (32 × 64 × 512), the transposed weight x1 (512 × 512, input
  feature × output feature) and the step-free term x2 (64 × 512). It flattens the block's steps and rows into 2048
  matrix rows, multiplies by x1 into a zero accumulator, folds the rows back, adds x2 along a new leading axis
  repeated over the 32 steps, and applies tanh. Entry (p, q, h) of what it stores is therefore

      tanh ( ∑_k x0[p, q, k] · x1[k, h]  +  x2[q, h] ):

  matrix row p·64 + q is row (p, q) of the block in both directions of the recast, the product into zero is the plain
  sum over the contracted coordinate, and rounding the operands to a narrower format is the identity on the extended
  reals.
-/
import proofs.«135552_j7318624273023_2_alg».proof.Proof.Gen.KernelIdeal.Skeleton
import proofs.«135552_j7318624273023_2_alg».proof.Proof.LibPlainDot
import proofs.«135552_j7318624273023_2_alg».proof.Proof.LibMergeLead

noncomputable section

namespace Cert.KernelIdeal.Body

open Cert.KernelIdeal Cert.KernelIdeal.Gen Idealize.ShloMosaic Idealize.ShloMosaic.ValueIdx

/-- Matrix row p·64 + q of the flattened block. -/
abbrev flatRow (p : Fin 32) (q : Fin 64) : Fin 2048 := ⟨p.val * 64 + q.val, by have := p.isLt; have := q.isLt; omega⟩

/-- The stored value at entry (p, q, h) of the block. -/
theorem pay_apply (x0 : Vec Ideal S32x64x512 .f32) (x1 : Vec Ideal S512x512 .bf16) (x2 : Vec Ideal S64x512 .f32)
    (p : Fin 32) (q : Fin 64) (h : Fin 512) :
    k0_pay1 (F := Ideal) x0 x1 x2 (ix3 p q h)
      = Ideal.tanh ((∑ k : Fin 512, x0 (ix3 p q k) * x1 (ix2 k h)) + x2 (ix2 q h)) := by
  unfold k0_pay1
  refine congrArg Ideal.tanh (congrArg₂ (· + ·) ?_ ?_)
  · refine (MergeLead.split_apply _ shapeCasts_S2048x512_S32x64x512 p q h (flatRow p q) rfl).trans ?_
    refine (PlainDot.matmul_zero_apply dot_S2048x512_S512x512_S2048x512_1_0_0_1_n_n rfl none _ _ (ix2 (flatRow p q) h)).trans ?_
    refine Finset.sum_congr rfl fun k _ => congrArg₂ (· * ·) ?_ ?_
    · exact MergeLead.merge_apply (truncf (F := Ideal) .bf16 x0 bitsLt_bf16_f32) shapeCasts_S32x64x512_S2048x512 p q k (flatRow p q) rfl
    · exact congrFun (shapeCast_self x1 shapeCasts_S512x512_S512x512) (ix2 k h)
  · refine (MergeLead.repeatLead_apply _ broadcasts_S1x64x512_S32x64x512 p q h).trans ?_
    refine (MergeLead.addLead_apply _ shapeCasts_S64x512_S1x64x512 0 q h).trans ?_
    exact congrFun (shapeCast_self x2 shapeCasts_S64x512_S64x512) (ix2 q h)

end Cert.KernelIdeal.Body

end
-- ==== Proof.Spec.lean ====
/-
  The function both programs compute.

  One step of an Elman recurrence whose hidden state is never fed back: for a sequence x of 2048 steps of 64 rows of
  512 features, a first hidden state h0 (64 rows of 512), weights W and U (512 × 512 each, rows indexed by the output
  feature) and two bias rows, every output entry is

      out[t, b, h] = tanh ( ∑_k x[t, b, k] · W[h, k]  +  ∑_k h0[b, k] · U[h, k]  +  hb[h]  +  ib[h] ).

  The two programs group the four summands differently: one adds the input bias to the input projection first and the
  recurrent term after, the other folds both biases into the recurrent term first. On the extended reals addition is
  commutative and associative, infinities included, so the groupings agree with no finiteness assumption
  (`regroup`).
-/
import Idealize.ShloMosaic.PureOps.Ideal
import Idealize.ShloMosaic.Lib.ValueIdx

noncomputable section

namespace Cert.Rnn

open Idealize.ShloMosaic Idealize.ShloMosaic.ValueIdx

/-- The sequence's shape: steps × rows × features. -/
abbrev Seq : Shape := ⟨3, ![2048, 64, 512]⟩
/-- A hidden state: rows × features. -/
abbrev Hid : Shape := ⟨2, ![64, 512]⟩
/-- A weight matrix: output features × input features. -/
abbrev Wgt : Shape := ⟨2, ![512, 512]⟩
/-- A bias row. -/
abbrev Row : Shape := ⟨1, ![512]⟩

/-- The input projection ∑_k x[t, b, k] · W[h, k]. -/
def inProj (x : Seq.Idx → EReal) (W : Wgt.Idx → EReal) (t : Fin 2048) (b : Fin 64) (h : Fin 512) : EReal :=
  ∑ k : Fin 512, x (ix3 t b k) * W (ix2 h k)

/-- The recurrent term ∑_k h0[b, k] · U[h, k]. -/
def recur (h0 : Hid.Idx → EReal) (U : Wgt.Idx → EReal) (b : Fin 64) (h : Fin 512) : EReal :=
  ∑ k : Fin 512, h0 (ix2 b k) * U (ix2 h k)

/-- Everything that does not depend on the step: the recurrent term with both bias rows added, the hidden bias first. -/
def stepFree (h0 : Hid.Idx → EReal) (U : Wgt.Idx → EReal) (hb ib : Row.Idx → EReal) (b : Fin 64) (h : Fin 512) : EReal :=
  (recur h0 U b h + hb (ix1 h)) + ib (ix1 h)

/-- The output sequence, entry by entry. -/
def out (x : Seq.Idx → EReal) (h0 : Hid.Idx → EReal) (W U : Wgt.Idx → EReal) (hb ib : Row.Idx → EReal) : Seq.Idx → EReal :=
  fun i => Ideal.tanh (inProj x W (i 0) (i 1) (i 2) + stepFree h0 U hb ib (i 1) (i 2))

theorem out_ix3 (x : Seq.Idx → EReal) (h0 : Hid.Idx → EReal) (W U : Wgt.Idx → EReal) (hb ib : Row.Idx → EReal)
    (t : Fin 2048) (b : Fin 64) (h : Fin 512) :
    out x h0 W U hb ib (ix3 t b h) = Ideal.tanh (inProj x W t b h + stepFree h0 U hb ib b h) := rfl

/-- Adding the input bias to the projection and the recurrent term (with its hidden bias) afterwards is adding the
    projection to the recurrent term with both biases: addition on the extended reals is commutative and associative. -/
theorem regroup (p r bh bi : EReal) : (p + bi) + (r + bh) = p + ((r + bh) + bi) := by
  rw [add_assoc, add_comm bi]

end Cert.Rnn

end
-- ==== Proof.HostPrefix.lean ====
/-
  The two operands the host prepares before the region, entry by entry.

  Before launching the kernel the host transposes the input weight W (and rounds it to a narrower format, which on
  the extended reals changes nothing): the region finds Wt with Wt[k, h] = W[h, k]. It also forms the step-free term:
  the first hidden state times the transposed recurrent weight, plus the hidden bias row, plus the input bias row,
  each row repeated over the 64 rows:  S[q, h] = (∑_k h0[q, k] · U[h, k] + hb[h]) + ib[h].
-/
import proofs.«135552_j7318624273023_2_alg».proof.Proof.Gen.KernelIdeal.Frame
import proofs.«135552_j7318624273023_2_alg».proof.Proof.LibPlainDot
import proofs.«135552_j7318624273023_2_alg».proof.Proof.Spec
import Idealize.ShloMosaic.Lib.Pipeline.Value
import Idealize.ShloMosaic.Lib.StableHlo.Run

noncomputable section

namespace Cert.KernelIdeal.Entry

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- A bias row given a leading unit axis and repeated over 64 rows: entry (q, h) is the row's entry h. -/
theorem biasRows_apply (v : S512.Idx → EReal) (q : Fin 64) (h : Fin 512) :
    broadcastInDim S64x512 ![0, 1] bcast_S1x512_S64x512_0_1 (broadcastInDim S1x512 ![1] bcast_S512_S1x512_1 v) (ix2 q h)
      = v (ix1 h) := by
  refine (broadcastInDim_apply _ bcast_S1x512_S64x512_0_1 _ (ix2 q h) (ix2 (0 : Fin 1) h) (fun a => ?_)).trans ?_
  · match a with
    | ⟨0, _⟩ => show 0 = if (1 : Nat) = 1 then 0 else q.val; rw [if_pos rfl]
    | ⟨1, _⟩ => show h.val = if (512 : Nat) = 1 then 0 else h.val; rw [if_neg (by decide)]
  · exact broadcastInDim_apply _ bcast_S512_S1x512_1 v (ix2 (0 : Fin 1) h) (ix1 h) (fun a => by
      match a with
      | ⟨0, _⟩ => show h.val = if (512 : Nat) = 1 then 0 else h.val; rw [if_neg (by decide)])

/-- The weight operand as the region finds it: the host's transpose of W, rounded. -/
theorem V_wt (c : Dev nD) :
    (V m c main_v9 : S512x512.Idx → EReal)
      = truncf (F := Ideal) .bf16 (transpose S512x512 [1, 0] (m ((c : Thread nD τ).loc main_arg2)) transposes_S512x512_S512x512_1_0) bitsLt_bf16_f32 := by
  show StableHlo.after hostOps0 (fun b => m (c, b)) (Proc.devRef .tc main_v9) = _
  after_results

/-- Its entry (k, h) is W[h, k]. -/
theorem wt_apply (c : Dev nD) (k h : Fin 512) :
    (V m c main_v9 : S512x512.Idx → EReal) (ix2 k h)
      = (m ((c : Thread nD τ).loc main_arg2) : S512x512.Idx → EReal) (ix2 h k) := by
  rw [V_wt]
  exact transpose_apply [1, 0] _ transposes_S512x512_S512x512_1_0 (ix2 k h) (ix2 h k) (fun b => by
    match b with
    | ⟨0, _⟩ => rfl
    | ⟨1, _⟩ => rfl)

/-- The step-free operand as the region finds it. -/
theorem V_stepFree (c : Dev nD) :
    (V m c main_v7 : S64x512.Idx → EReal)
      = addf (F := Ideal) (addf (F := Ideal) (Host.dotGeneral (F := Ideal) (φ₁ := .f32) (φ₂ := .f32) dot_S64x512_S512x512_S64x512_1_0_0_1_n_n none (m ((c : Thread nD τ).loc main_arg1))
            (transpose S512x512 [1, 0] (m ((c : Thread nD τ).loc main_arg3)) transposes_S512x512_S512x512_1_0))
          (broadcastInDim S64x512 ![0, 1] bcast_S1x512_S64x512_0_1 (broadcastInDim S1x512 ![1] bcast_S512_S1x512_1 (m ((c : Thread nD τ).loc main_arg4)))))
        (broadcastInDim S64x512 ![0, 1] bcast_S1x512_S64x512_0_1 (broadcastInDim S1x512 ![1] bcast_S512_S1x512_1 (m ((c : Thread nD τ).loc main_arg5)))) := by
  show StableHlo.after hostOps0 (fun b => m (c, b)) (Proc.devRef .tc main_v7) = _
  after_results

/-- Its entry (q, h) is the specification's step-free term. -/
theorem stepFree_apply (c : Dev nD) (q : Fin 64) (h : Fin 512) :
    (V m c main_v7 : S64x512.Idx → EReal) (ix2 q h)
      = Cert.Rnn.stepFree (m ((c : Thread nD τ).loc main_arg1)) (m ((c : Thread nD τ).loc main_arg3))
          (m ((c : Thread nD τ).loc main_arg4)) (m ((c : Thread nD τ).loc main_arg5)) q h := by
  rw [V_stepFree]
  unfold Cert.Rnn.stepFree Cert.Rnn.recur
  refine congrArg₂ (· + ·) (congrArg₂ (· + ·) ?_ ?_) ?_
  · refine (PlainDot.hostDot_apply dot_S64x512_S512x512_S64x512_1_0_0_1_n_n rfl none _ _ (ix2 q h)).trans ?_
    refine Finset.sum_congr rfl fun k _ => congrArg₂ (· * ·) rfl ?_
    exact transpose_apply [1, 0] _ transposes_S512x512_S512x512_1_0 (ix2 k h) (ix2 h k) (fun b => by
      match b with
      | ⟨0, _⟩ => rfl
      | ⟨1, _⟩ => rfl)
  · exact biasRows_apply _ q h
  · exact biasRows_apply _ q h

end Cert.KernelIdeal.Entry

end
-- ==== Proof.KernelValue.lean ====
/-
  The kernel's two results as functions of the arguments.

  The grid has 64 points; point t works on steps 32·t … 32·t + 31: it reads that block of the sequence and the whole
  of the two host-prepared operands, and writes the same block of the output. With the body's stored value read entry
  by entry and the two operands read entry by entry, what point t writes back is block t of the specification's
  output sequence; the 64 blocks tile the output array (step s lies in block s / 32), so after the run the array is
  that sequence. The lines after the region cut out the last step and drop its unit axis: the second result.
-/
import proofs.«135552_j7318624273023_2_alg».proof.Proof.Gen.KernelIdeal.Frame
import proofs.«135552_j7318624273023_2_alg».proof.Proof.Payload
import proofs.«135552_j7318624273023_2_alg».proof.Proof.HostPrefix
import proofs.«135552_j7318624273023_2_alg».proof.Proof.Spec
import Idealize.ShloMosaic.Lib.Pipeline.Value
import Idealize.ShloMosaic.Lib.StableHlo.Run
import Idealize.ShloMosaic.Lib.Tactic

noncomputable section

namespace Cert.KernelIdeal.Whole

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The specification's output sequence of the argument arrays on core `c`. -/
abbrev seq (c : Dev nD) : S2048x64x512.Idx → EReal :=
  Cert.Rnn.out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The last step of a sequence as a 64 × 512 matrix: what the lines after the region compute. -/
def lastStep (o : S2048x64x512.Idx → EReal) : S64x512.Idx → EReal :=
  shapeCast S64x512 (extractStridedSlice S1x64x512 ![2047, 0, 0] o slices_S2048x64x512_S1x64x512_2047_0_0) shapeCasts_S1x64x512_S64x512

/-- The printed index maps over the grid: the sequence's and the output's blocks move with the point along the step
    axis, the two operands' blocks stay at the origin. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The sequence's block at point `t`: entry y is the sequence at step 32·t + y₀. -/
theorem seq_blk (c : Dev nD) (t : Fin cfg0.N) (y : S32x64x512.Idx) (i : S2048x64x512.Idx)
    (h0 : (i 0).val = t.val * 32 + (y 0).val) (h1 : (i 1).val = (y 1).val) (h2 : (i 2).val = (y 2).val) :
    (iblk m c 0 t : Vec Ideal S32x64x512 .f32) y = (m ((c : Thread nD τ).loc main_arg0) : S2048x64x512.Idx → EReal) i := by
  show V m c main_arg0 (((cfg0.win 0).blk t).view.emb y) = _
  rw [V_main_arg0]
  obtain ⟨e0, e1, e2, -⟩ := idx_facts t
  refine congrArg _ (funext fun a => Fin.ext ?_)
  match a with
  | ⟨0, _⟩ => show win0_0.index t (0 : Fin 3) * 32 + 1 * (y 0).val = (i 0).val; rw [e0, h0]; omega
  | ⟨1, _⟩ => show win0_0.index t (1 : Fin 3) * 64 + 1 * (y 1).val = (i 1).val; rw [e1, h1]; omega
  | ⟨2, _⟩ => show win0_0.index t (2 : Fin 3) * 512 + 1 * (y 2).val = (i 2).val; rw [e2, h2]; omega

/-- The weight operand's block at every point is the whole operand. -/
theorem wt_blk (c : Dev nD) (t : Fin cfg0.N) (y : S512x512.Idx) :
    (iblk m c 1 t : Vec Ideal S512x512 .bf16) y = (V m c main_v9 : S512x512.Idx → EReal) y := by
  show V m c main_v9 (((cfg0.win 1).blk t).view.emb y) = _
  obtain ⟨-, -, -, e3, e4, -⟩ := idx_facts t
  refine congrArg _ (funext fun a => Fin.ext ?_)
  match a with
  | ⟨0, _⟩ => show win0_1.index t (0 : Fin 2) * 512 + 1 * (y 0).val = (y 0).val; rw [e3]; omega
  | ⟨1, _⟩ => show win0_1.index t (1 : Fin 2) * 512 + 1 * (y 1).val = (y 1).val; rw [e4]; omega

/-- The step-free operand's block at every point is the whole operand. -/
theorem stepFree_blk (c : Dev nD) (t : Fin cfg0.N) (y : S64x512.Idx) :
    (iblk m c 2 t : Vec Ideal S64x512 .f32) y = (V m c main_v7 : S64x512.Idx → EReal) y := by
  show V m c main_v7 (((cfg0.win 2).blk t).view.emb y) = _
  obtain ⟨-, -, -, -, -, e5, e6, -⟩ := idx_facts t
  refine congrArg _ (funext fun a => Fin.ext ?_)
  match a with
  | ⟨0, _⟩ => show win0_2.index t (0 : Fin 2) * 64 + 1 * (y 0).val = (y 0).val; rw [e5]; omega
  | ⟨1, _⟩ => show win0_2.index t (1 : Fin 2) * 512 + 1 * (y 1).val = (y 1).val; rw [e6]; omega

/-- Step 32·t + p, for p inside a block. -/
abbrev stepOf (t : Fin cfg0.N) (p : Fin 32) : Fin 2048 :=
  ⟨t.val * 32 + p.val, by have := p.isLt; have := Nat.lt_of_lt_of_eq t.isLt N_0; omega⟩

/-- Entry (p, q, h) of the output's block at point `t` is entry (32·t + p, q, h) of the array. -/
theorem out_emb (t : Fin cfg0.N) (p : Fin 32) (q : Fin 64) (h : Fin 512) :
    ((cfg0.win 3).blk t).view.emb (ix3 p q h) = ix3 (stepOf t p) q h := by
  obtain ⟨-, -, -, -, -, -, -, e7, e8, e9⟩ := idx_facts t
  refine funext fun a => Fin.ext ?_
  match a with
  | ⟨0, _⟩ => show win0_3.index t (0 : Fin 3) * 32 + 1 * p.val = t.val * 32 + p.val; rw [e7]; omega
  | ⟨1, _⟩ => show win0_3.index t (1 : Fin 3) * 64 + 1 * q.val = q.val; rw [e8]; omega
  | ⟨2, _⟩ => show win0_3.index t (2 : Fin 3) * 512 + 1 * h.val = h.val; rw [e9]; omega

/-- What point `t` writes back is block `t` of the specification's output sequence. -/
theorem flushed_eq (c : Dev nD) (t : Fin cfg0.N) :
    (dats m 0 c).flushed 3 t = ((cfg0.win 3).blk t).view.read (Elt Ideal) (seq m c) := by
  show (cfg0.win 3).cut (grid0.coords t) ((dats m 0 c).after 3 t) = _
  rw [after0_3]
  unfold out0_3
  rw [View.canon_unit_zero hz3]
  simp only [View.ld_unit_zero (S := S32x64x512) hz3, View.ld_unit_zero (S := S512x512) hz2, View.ld_unit_zero (S := S64x512) hz2]
  funext j
  obtain ⟨p, q, h, rfl⟩ : ∃ (p : Fin 32) (q : Fin 64) (h : Fin 512), j = ix3 p q h := ⟨j 0, j 1, j 2, eq_ix3 j⟩
  show k0_pay1 (F := Ideal) (iblk m c 0 t) (iblk m c 1 t) (iblk m c 2 t) (ix3 p q h) = seq m c (((cfg0.win 3).blk t).view.emb (ix3 p q h))
  rw [out_emb t p q h]
  refine (Body.pay_apply (iblk m c 0 t) (iblk m c 1 t) (iblk m c 2 t) p q h).trans ?_
  show _ = Ideal.tanh (Cert.Rnn.inProj _ _ (stepOf t p) q h + Cert.Rnn.stepFree _ _ _ _ q h)
  refine congrArg Ideal.tanh (congrArg₂ (· + ·) ?_ ?_)
  · unfold Cert.Rnn.inProj
    refine Finset.sum_congr rfl fun k _ => congrArg₂ (· * ·) ?_ ?_
    · exact seq_blk m c t (ix3 p q k) (ix3 (stepOf t p) q k) rfl rfl rfl
    · exact (wt_blk m c t (ix2 k h)).trans (Entry.wt_apply m c k h)
  · exact (stepFree_blk m c t (ix2 q h)).trans (Entry.stepFree_apply m c q h)

/-- An index of the output array is in point `t`'s block iff each coordinate is in the block's range on its axis. -/
theorem mem_blk (t : Fin cfg0.N) (i : S2048x64x512.Idx) :
    i ∈ ((cfg0.win 3).blk t).view.set ↔ ∀ a : Fin 3, win0_3.index t a * S32x64x512.size a ≤ (i a).val ∧ (i a).val < win0_3.index t a * S32x64x512.size a + S32x64x512.size a := by
  show i ∈ ((View.whole main_v10).slice (win0_3.rect t)).set ↔ _
  rw [View.set_slice_whole, Rect.mem_set_unit]
  exact Iff.rfl

/-- Every entry of the output array lies in some point's block: step s in block s / 32. -/
theorem cover (i : S2048x64x512.Idx) :
    ∃ t : Fin cfg0.N, (cfg0.win 3).flush t = true ∧ i ∈ ((cfg0.win 3).blk t).view.set := by
  have h0 : (i 0).val < 2048 := (i 0).isLt
  have h1 : (i 1).val < 64 := (i 1).isLt
  have h2 : (i 2).val < 512 := (i 2).isLt
  have ht : (i 0).val / 32 < cfg0.N := Nat.lt_of_lt_of_eq (by omega) N_0.symm
  refine ⟨⟨(i 0).val / 32, ht⟩, flush0_3 _, ?_⟩
  rw [mem_blk]
  obtain ⟨-, -, -, -, -, -, -, e7, e8, e9⟩ := idx_facts ⟨(i 0).val / 32, ht⟩
  intro a
  match a with
  | ⟨0, _⟩ =>
    show win0_3.index ⟨(i 0).val / 32, ht⟩ (0 : Fin 3) * 32 ≤ (i 0).val ∧ (i 0).val < win0_3.index ⟨(i 0).val / 32, ht⟩ (0 : Fin 3) * 32 + 32
    rw [e7]; show (i 0).val / 32 * 32 ≤ (i 0).val ∧ (i 0).val < (i 0).val / 32 * 32 + 32; omega
  | ⟨1, _⟩ =>
    show win0_3.index ⟨(i 0).val / 32, ht⟩ (1 : Fin 3) * 64 ≤ (i 1).val ∧ (i 1).val < win0_3.index ⟨(i 0).val / 32, ht⟩ (1 : Fin 3) * 64 + 64
    rw [e8]; omega
  | ⟨2, _⟩ =>
    show win0_3.index ⟨(i 0).val / 32, ht⟩ (2 : Fin 3) * 512 ≤ (i 2).val ∧ (i 2).val < win0_3.index ⟨(i 0).val / 32, ht⟩ (2 : Fin 3) * 512 + 512
    rw [e9]; omega

/-- The output array after the run is the specification's output sequence. -/
theorem final (c : Dev nD) : (dats m 0 c).arrAt 3 cfg0.N = seq m c :=
  (dats m 0 c).arrAt_eq_of_cover 3 (seq m c) (fun t _ => flushed_eq m c t) cover

/-- The second result after the run: the last step of that sequence. -/
theorem tail_eq (c : Dev nD) :
    Pipeline.afterTail₀ cfgs (dats m) 0 (V0 m) [hostOps1] c main_v12 = lastStep (seq m c) := by
  unfold Pipeline.afterTail₀
  show StableHlo.after hostOps1 _ (Proc.devRef .tc main_v12) = _
  after_results
  have e : Pipeline.withArrays (cfgs 0).spec c (V0 m c) (fun w => (dats m 0 c).arrAt w (cfgs 0).N) (Proc.devRef .tc main_v10)
      = seq m c := (Pipeline.withArrays_arr spec0 launch0.win.arr_inj c _ _ 3).trans (final m c)
  rw [e]
  rfl

/-- The run, read: every weakly fair execution of the kernel's program ends with the output array at the
    specification's sequence, the second result at its last step, and the arguments unchanged. -/
theorem run : θ_run defs (onTc (τ := τ) (main (F := Ideal))) ⟨m, fun _ => 0, ρ⟩ fun r => ∀ c : Dev nD,
      r.2.mem ((c : Thread nD τ).loc main_v10) = seq m c
      ∧ r.2.mem ((c : Thread nD τ).loc main_v12) = lastStep (seq m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h c).1 3).trans (final m c),
      ((h c).2 main_v12 (Pipeline.mem_restRefs_of main_v12 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Whole

end
-- ==== Proof.RefValue.lean ====
/-
  The reference computes the specification.

  The reference contracts the feature axis of the whole sequence with W, adds the input bias row along the feature
  axis, forms the recurrent term with its hidden bias as a 64 × 512 matrix, repeats it over the 2048 steps, adds, and
  applies tanh. Entry (t, b, h) is tanh ((∑_k x[t, b, k] · W[h, k] + ib[h]) + (∑_k h0[b, k] · U[h, k] + hb[h])), which
  is the specification's entry after regrouping the sum.
-/
import proofs.«135552_j7318624273023_2_alg».proof.Proof.Gen.ReferenceIdeal.Read
import proofs.«135552_j7318624273023_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The reference's first result, before the last step is cut out, is the specification's output sequence. -/
theorem seq_eq (x0 : S2048x64x512.Idx → EReal) (x1 : S64x512.Idx → EReal) (x2 x3 : S512x512.Idx → EReal)
    (x4 x5 : S512.Idx → EReal) :
    val_main_v12 (F := Ideal) x0 x1 x2 x3 x4 x5 = Cert.Rnn.out x0 x1 x2 x3 x4 x5 := by
  funext i
  obtain ⟨t, b, h, rfl⟩ : ∃ (t : Fin 2048) (b : Fin 64) (h : Fin 512), i = ix3 t b h := ⟨i 0, i 1, i 2, eq_ix3 i⟩
  rw [val_main_v12_apply, val_main_v11_apply, val_main_v3_apply, val_main_v0_apply, val_main_v2_apply, val_main_v1_apply,
    val_main_v10_apply, val_main_v9_apply, val_main_v8_apply, val_main_v5_apply, val_main_v7_apply, val_main_v6_apply,
    Cert.Rnn.out_ix3]
  unfold Cert.Rnn.inProj Cert.Rnn.stepFree Cert.Rnn.recur
  show Ideal.tanh ((_ + _) + (_ + _)) = _
  rw [Cert.Rnn.regroup]
  refine congrArg Ideal.tanh (congrArg₂ (· + ·) ?_ (congrArg₂ (· + ·) (congrArg₂ (· + ·) ?_ ?_) ?_))
  · refine Finset.sum_congr rfl fun k _ => congrArg₂ (· * ·) (congrArg x0 ?_) (congrArg x2 ?_)
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl)
  · refine Finset.sum_congr rfl fun k _ => congrArg₂ (· * ·) (congrArg x1 ?_) ((val_main_v4_apply (F := Ideal) x3 _).trans (congrArg x3 ?_))
    · exact funext fun a => Fin.ext (by match a with | ⟨0, _⟩ => rfl | ⟨1, _⟩ => rfl)
    · exact funext fun a => Fin.ext (by match a with | ⟨0, _⟩ => rfl | ⟨1, _⟩ => rfl)
  · exact congrArg x4 (funext fun a => Fin.ext (by match a with | ⟨0, _⟩ => rfl))
  · exact congrArg x5 (funext fun a => Fin.ext (by match a with | ⟨0, _⟩ => rfl))

end Cert.ReferenceIdeal.RefValue

end
-- ==== Proof.lean ====
/-
  A recurrence step whose hidden state is never fed back, against its plain reference.

  Both programs compute, for every step t, row b and output feature h,

      out[t, b, h] = tanh ( ∑_k x[t, b, k] · W[h, k] + ∑_k h0[b, k] · U[h, k] + hb[h] + ib[h] ),

  and return the whole sequence together with its last step. The kernel's program lets the host fold the recurrent
  term and both bias rows into one 64 × 512 operand and transpose W, then runs 64 grid points, each multiplying a
  block of 32 steps (flattened to 2048 matrix rows) by the transposed weight, adding the operand and applying tanh;
  the reference contracts the whole sequence with W, adds the input bias, adds the recurrent term with the hidden
  bias, and applies tanh. On the extended reals the two differ only in the grouping of a four-term sum
  (`Cert.Rnn.regroup`), so no finiteness of the inputs is used. The last step is cut out by the same two host
  lines in both programs.

  The kernel's value is read off its frame run (`Cert.KernelIdeal.Whole.run`), the reference's off its own run read
  stage by stage (`Cert.ReferenceIdeal.RefValue.seq_eq`); the frames are the programs' runs with the results
  dropped, and the idealization rewrote nothing.
-/
import proofs.«135552_j7318624273023_2_alg».proof.Defs
import proofs.«135552_j7318624273023_2_alg».proof.Proof.Gen.Kernel
import proofs.«135552_j7318624273023_2_alg».proof.Proof.Gen.Kernel.Skeleton
import proofs.«135552_j7318624273023_2_alg».proof.Proof.Gen.Kernel.Launch
import proofs.«135552_j7318624273023_2_alg».proof.Proof.Gen.Kernel.Points
import proofs.«135552_j7318624273023_2_alg».proof.Proof.Gen.Kernel.Frame
import proofs.«135552_j7318624273023_2_alg».proof.Proof.Gen.KernelIdeal
import proofs.«135552_j7318624273023_2_alg».proof.Proof.Gen.KernelIdeal.Skeleton
import proofs.«135552_j7318624273023_2_alg».proof.Proof.Gen.KernelIdeal.Launch
import proofs.«135552_j7318624273023_2_alg».proof.Proof.Gen.KernelIdeal.Points
import proofs.«135552_j7318624273023_2_alg».proof.Proof.Gen.KernelIdeal.Frame
import proofs.«135552_j7318624273023_2_alg».proof.Proof.Gen.ReferenceIdeal
import proofs.«135552_j7318624273023_2_alg».proof.Proof.Gen.ReferenceIdeal.Run
import proofs.«135552_j7318624273023_2_alg».proof.Proof.Gen.ReferenceIdeal.Read
import proofs.«135552_j7318624273023_2_alg».proof.Proof.Gen.Pre_finite_inputs
import proofs.«135552_j7318624273023_2_alg».proof.Proof.KernelValue
import proofs.«135552_j7318624273023_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel's program runs and keeps its arguments. -/
theorem frame_kernel : Cert.frame_Kernel := fun m ρ _ => Cert.Kernel.Gen.frame m ρ

/-- So does the idealized one. -/
theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the six arguments both programs end with the specification's output sequence of
    those arguments and with its last step: the kernel's by its run read block by block, the reference's by its run
    read stage by stage and regrouped. -/
theorem algebraic : Cert.algebraic_KernelIdeal_ReferenceIdeal := by
  intro m ρ m' ρ' _ hagree
  refine ⟨fun c => Cert.KernelIdeal.Whole.seq m c, fun c => Cert.KernelIdeal.Whole.lastStep (Cert.KernelIdeal.Whole.seq m c),
    Cert.KernelIdeal.Whole.run m ρ, ?_⟩
  refine (θ_run Cert.ReferenceIdeal.defs _ _).mono (fun _ h c => ?_) (Cert.ReferenceIdeal.Value.run (F := Ideal) m' ρ')
  obtain ⟨a0, a1, a2, a3, a4, a5⟩ := hagree c
  refine ⟨(h c).1.trans ?_, (h c).2.1.trans ?_, (h c).2.2⟩
  · rw [Cert.ReferenceIdeal.Read.val_main_v12_eq, Cert.ReferenceIdeal.RefValue.seq_eq, a0, a1, a2, a3, a4, a5]
  · rw [Cert.ReferenceIdeal.Read.val_main_v12_eq, Cert.ReferenceIdeal.RefValue.seq_eq, a0, a1, a2, a3, a4, a5]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
